-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000 : Shape := ⟨1, ![10000]⟩
abbrev S400000 : Shape := ⟨1, ![400000]⟩
abbrev S1000 : Shape := ⟨1, ![1000]⟩
abbrev S4000000 : Shape := ⟨1, ![4000000]⟩
abbrev S16000000 : Shape := ⟨1, ![16000000]⟩
abbrev S_ : Shape := ⟨0, ![]⟩

class Facts : Prop where
  bcast_S_S10000 : S_.BroadcastsInDim S10000 (![] : Fin 0 → Fin S10000.rank)
  reducesTo_S10000_S_d0 : S10000.ReducesTo [0] S_
  h_S_ : 0 < S_.numel
  bcast_S_S400000 : S_.BroadcastsInDim S400000 (![] : Fin 0 → Fin S400000.rank)
  reducesTo_S400000_S_d0 : S400000.ReducesTo [0] S_
  bcast_S_S1000 : S_.BroadcastsInDim S1000 (![] : Fin 0 → Fin S1000.rank)
  reducesTo_S1000_S_d0 : S1000.ReducesTo [0] S_
  bcast_S_S4000000 : S_.BroadcastsInDim S4000000 (![] : Fin 0 → Fin S4000000.rank)
  reducesTo_S4000000_S_d0 : S4000000.ReducesTo [0] S_
  bcast_S_S16000000 : S_.BroadcastsInDim S16000000 (![] : Fin 0 → Fin S16000000.rank)
  reducesTo_S16000000_S_d0 : S16000000.ReducesTo [0] S_

variable [Facts]

def fn_part2 {F : FTy → Type} [FloatOps F] (main_arg7 : FVec F S400000 .f32) (main_v33 : IVec S_ 1) : IVec S_ 1 :=
  let main_v34 : FVec F S400000 .f32 := Host.absf main_arg7
  let main_cst_12 : FVec F S_ .f32 := constant S_ .f32 0x7F800000#32
  let main_v35 : FVec F S400000 .f32 := broadcastInDim S400000 ![] bcast_S_S400000 main_cst_12
  let main_v36 : IVec S400000 1 := cmpf .olt main_v34 main_v35
  let main_c_13 : IVec S_ 1 := constantI S_ 1 1#1
  let main_v37 : IVec S_ 1 := (fun x v => Host.reduce IntOp.andi x v reducesTo_S400000_S_d0 h_S_) main_v36 main_c_13
  let main_v38 : IVec S_ 1 := andi main_v33 main_v37
  main_v38

def fn_part1 {F : FTy → Type} [FloatOps F] (main_arg4 : FVec F S400000 .f32) (main_arg5 : FVec F S4000000 .f32) (main_arg6 : FVec F S16000000 .f32) (main_arg7 : FVec F S400000 .f32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_v19 : FVec F S400000 .f32 := Host.absf main_arg4
  let main_cst_6 : FVec F S_ .f32 := constant S_ .f32 0x7F800000#32
  let main_v20 : FVec F S400000 .f32 := broadcastInDim S400000 ![] bcast_S_S400000 main_cst_6
  let main_v21 : IVec S400000 1 := cmpf .olt main_v19 main_v20
  let main_c_7 : IVec S_ 1 := constantI S_ 1 1#1
  let main_v22 : IVec S_ 1 := (fun x v => Host.reduce IntOp.andi x v reducesTo_S400000_S_d0 h_S_) main_v21 main_c_7
  let main_v23 : IVec S_ 1 := andi main_v18 main_v22
  let main_v24 : FVec F S4000000 .f32 := Host.absf main_arg5
  let main_cst_8 : FVec F S_ .f32 := constant S_ .f32 0x7F800000#32
  let main_v25 : FVec F S4000000 .f32 := broadcastInDim S4000000 ![] bcast_S_S4000000 main_cst_8
  let main_v26 : IVec S4000000 1 := cmpf .olt main_v24 main_v25
  let main_c_9 : IVec S_ 1 := constantI S_ 1 1#1
  let main_v27 : IVec S_ 1 := (fun x v => Host.reduce IntOp.andi x v reducesTo_S4000000_S_d0 h_S_) main_v26 main_c_9
  let main_v28 : IVec S_ 1 := andi main_v23 main_v27
  let main_v29 : FVec F S16000000 .f32 := Host.absf main_arg6
  let main_cst_10 : FVec F S_ .f32 := constant S_ .f32 0x7F800000#32
  let main_v30 : FVec F S16000000 .f32 := broadcastInDim S16000000 ![] bcast_S_S16000000 main_cst_10
  let main_v31 : IVec S16000000 1 := cmpf .olt main_v29 main_v30
  let main_c_11 : IVec S_ 1 := constantI S_ 1 1#1
  let main_v32 : IVec S_ 1 := (fun x v => Host.reduce IntOp.andi x v reducesTo_S16000000_S_d0 h_S_) main_v31 main_c_11
  let main_v33 : IVec S_ 1 := andi main_v28 main_v32
  fn_part2 (F := F) main_arg7 main_v33

def fn {F : FTy → Type} [FloatOps F] (main_arg0 : FVec F S10000 .f32) (main_arg1 : FVec F S10000 .f32) (main_arg2 : FVec F S400000 .f32) (main_arg3 : FVec F S1000 .f32) (main_arg4 : FVec F S400000 .f32) (main_arg5 : FVec F S4000000 .f32) (main_arg6 : FVec F S16000000 .f32) (main_arg7 : FVec F S400000 .f32) (main_arg8 : IVec S4000000 32) (main_arg9 : IVec S4000000 32) (main_arg10 : IVec S16000000 32) (main_arg11 : IVec S16000000 32) (main_arg12 : IVec S400000 32) (main_arg13 : IVec S400000 32) : IVec S_ 1 :=
  let main_v0 : FVec F S10000 .f32 := Host.absf main_arg0
  let main_cst : FVec F S_ .f32 := constant S_ .f32 0x7F800000#32
  let main_v1 : FVec F S10000 .f32 := broadcastInDim S10000 ![] bcast_S_S10000 main_cst
  let main_v2 : IVec S10000 1 := cmpf .olt main_v0 main_v1
  let main_c : IVec S_ 1 := constantI S_ 1 1#1
  let main_v3 : IVec S_ 1 := (fun x v => Host.reduce IntOp.andi x v reducesTo_S10000_S_d0 h_S_) main_v2 main_c
  let main_v4 : FVec F S10000 .f32 := Host.absf main_arg1
  let main_cst_0 : FVec F S_ .f32 := constant S_ .f32 0x7F800000#32
  let main_v5 : FVec F S10000 .f32 := broadcastInDim S10000 ![] bcast_S_S10000 main_cst_0
  let main_v6 : IVec S10000 1 := cmpf .olt main_v4 main_v5
  let main_c_1 : IVec S_ 1 := constantI S_ 1 1#1
  let main_v7 : IVec S_ 1 := (fun x v => Host.reduce IntOp.andi x v reducesTo_S10000_S_d0 h_S_) main_v6 main_c_1
  let main_v8 : IVec S_ 1 := andi main_v3 main_v7
  let main_v9 : FVec F S400000 .f32 := Host.absf main_arg2
  let main_cst_2 : FVec F S_ .f32 := constant S_ .f32 0x7F800000#32
  let main_v10 : FVec F S400000 .f32 := broadcastInDim S400000 ![] bcast_S_S400000 main_cst_2
  let main_v11 : IVec S400000 1 := cmpf .olt main_v9 main_v10
  let main_c_3 : IVec S_ 1 := constantI S_ 1 1#1
  let main_v12 : IVec S_ 1 := (fun x v => Host.reduce IntOp.andi x v reducesTo_S400000_S_d0 h_S_) main_v11 main_c_3
  let main_v13 : IVec S_ 1 := andi main_v8 main_v12
  let main_v14 : FVec F S1000 .f32 := Host.absf main_arg3
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg4 main_arg5 main_arg6 main_arg7 main_v13 main_v16
-- ==== Kernel.lean ====
abbrev S10000 : Shape := ⟨1, ![10000]⟩
abbrev S400000 : Shape := ⟨1, ![400000]⟩
abbrev S1000 : Shape := ⟨1, ![1000]⟩
abbrev S4000000 : Shape := ⟨1, ![4000000]⟩
abbrev S16000000 : Shape := ⟨1, ![16000000]⟩
abbrev S_ : Shape := ⟨0, ![]⟩
abbrev S4000000x1 : Shape := ⟨2, ![4000000, 1]⟩
abbrev S16000000x1 : Shape := ⟨2, ![16000000, 1]⟩
abbrev S401408 : Shape := ⟨1, ![401408]⟩
abbrev S8192 : Shape := ⟨1, ![8192]⟩
abbrev S400000x1 : Shape := ⟨2, ![400000, 1]⟩

abbrev nBuf : Space → Nat
  | .hbm => 70
  | .vmem => 12
  | .smem => 0
  | _ => 0

abbrev bufTy : (tb : Table) → Fin (tcTables nBuf tb) → BufTy
  | .hbm, ⟨0, _⟩ => ⟨S10000, .f32⟩
  | .hbm, ⟨1, _⟩ => ⟨S10000, .f32⟩
  | .hbm, ⟨2, _⟩ => ⟨S400000, .f32⟩
  | .hbm, ⟨3, _⟩ => ⟨S1000, .f32⟩
  | .hbm, ⟨4, _⟩ => ⟨S400000, .f32⟩
  | .hbm, ⟨5, _⟩ => ⟨S4000000, .f32⟩
  | .hbm, ⟨6, _⟩ => ⟨S16000000, .f32⟩
  | .hbm, ⟨7, _⟩ => ⟨S400000, .f32⟩
  | .hbm, ⟨8, _⟩ => ⟨S4000000, .i32⟩
  | .hbm, ⟨9, _⟩ => ⟨S4000000, .i32⟩
  | .hbm, ⟨10, _⟩ => ⟨S16000000, .i32⟩
  | .hbm, ⟨11, _⟩ => ⟨S16000000, .i32⟩
  | .hbm, ⟨12, _⟩ => ⟨S400000, .i32⟩
  | .hbm, ⟨13, _⟩ => ⟨S400000, .i32⟩
  | .hbm, ⟨14, _⟩ => ⟨S10000, .f32⟩
  | .hbm, ⟨15, _⟩ => ⟨S_, .i32⟩
  | .hbm, ⟨16, _⟩ => ⟨S4000000, .i32⟩
  | .hbm, ⟨17, _⟩ => ⟨S4000000, .i1⟩
  | .hbm, ⟨18, _⟩ => ⟨S_, .i32⟩
  | .hbm, ⟨19, _⟩ => ⟨S4000000, .i32⟩
  | .hbm, ⟨20, _⟩ => ⟨S4000000, .i32⟩
  | .hbm, ⟨21, _⟩ => ⟨S4000000, .i32⟩
  | .hbm, ⟨22, _⟩ => ⟨S4000000x1, .i32⟩
  | .hbm, ⟨23, _⟩ => ⟨S4000000, .f32⟩
  | .hbm, ⟨24, _⟩ => ⟨S4000000, .f32⟩
  | .hbm, ⟨25, _⟩ => ⟨S_, .f32⟩
  | .hbm, ⟨26, _⟩ => ⟨S400000, .f32⟩
  | .hbm, ⟨27, _⟩ => ⟨S4000000x1, .i32⟩
  | .hbm, ⟨28, _⟩ => ⟨S400000, .f32⟩
  | .hbm, ⟨29, _⟩ => ⟨S_, .i32⟩
  | .hbm, ⟨30, _⟩ => ⟨S16000000, .i32⟩
  | .hbm, ⟨31, _⟩ => ⟨S16000000, .i1⟩
  | .hbm, ⟨32, _⟩ => ⟨S_, .i32⟩
  | .hbm, ⟨33, _⟩ => ⟨S16000000, .i32⟩
  | .hbm, ⟨34, _⟩ => ⟨S16000000, .i32⟩
  | .hbm, ⟨35, _⟩ => ⟨S16000000, .i32⟩
  | .hbm, ⟨36, _⟩ => ⟨S16000000x1, .i32⟩
  | .hbm, ⟨37, _⟩ => ⟨S16000000, .f32⟩
  | .hbm, ⟨38, _⟩ => ⟨S16000000, .f32⟩
  | .hbm, ⟨39, _⟩ => ⟨S_, .f32⟩
  | .hbm, ⟨40, _⟩ => ⟨S400000, .f32⟩
  | .hbm, ⟨41, _⟩ => ⟨S16000000x1, .i32⟩
  | .hbm, ⟨42, _⟩ => ⟨S400000, .f32⟩
  | .hbm, ⟨43, _⟩ => ⟨S_, .f32⟩
  | .hbm, ⟨44, _⟩ => ⟨S400000, .f32⟩
  | .hbm, ⟨45, _⟩ => ⟨S400000, .f32⟩
  | .hbm, ⟨46, _⟩ => ⟨S400000, .f32⟩
  | .hbm, ⟨47, _⟩ => ⟨S_, .i32⟩
  | .hbm, ⟨48, _⟩ => ⟨S_, .f32⟩
  | .hbm, ⟨49, _⟩ => ⟨S401408, .f32⟩
  | .hbm, ⟨50, _⟩ => ⟨S_, .i32⟩
  | .hbm, ⟨51, _⟩ => ⟨S_, .f32⟩
  | .hbm, ⟨52, _⟩ => ⟨S401408, .f32⟩
  | .hbm, ⟨53, _⟩ => ⟨S401408, .f32⟩
  | .hbm, ⟨54, _⟩ => ⟨S400000, .f32⟩
  | .hbm, ⟨55, _⟩ => ⟨S_, .i32⟩
  | .hbm, ⟨56, _⟩ => ⟨S400000, .i32⟩
  | .hbm, ⟨57, _⟩ => ⟨S400000, .i1⟩
  | .hbm, ⟨58, _⟩ => ⟨S_, .i32⟩
  | .hbm, ⟨59, _⟩ => ⟨S400000, .i32⟩
  | .hbm, ⟨60, _⟩ => ⟨S400000, .i32⟩
  | .hbm, ⟨61, _⟩ => ⟨S400000, .i32⟩
  | .hbm, ⟨62, _⟩ => ⟨S400000x1, .i32⟩
  | .hbm, ⟨63, _⟩ => ⟨S400000, .f32⟩
  | .hbm, ⟨64, _⟩ => ⟨S400000, .f32⟩
  | .hbm, ⟨65, _⟩ => ⟨S_, .f32⟩
  | .hbm, ⟨66, _⟩ => ⟨S1000, .f32⟩
  | .hbm, ⟨67, _⟩ => ⟨S400000x1, .i32⟩
  | .hbm, ⟨68, _⟩ => ⟨S1000, .f32⟩
  | .hbm, ⟨69, _⟩ => ⟨S1000, .f32⟩
  | .local _ .vmem, ⟨0, _⟩ => ⟨S10000, .f32⟩
  | .local _ .vmem, ⟨1, _⟩ => ⟨S10000, .f32⟩
  | .local _ .vmem, ⟨2, _⟩ => ⟨S10000, .f32⟩
  | .local _ .vmem, ⟨3, _⟩ => ⟨S8192, .f32⟩
  | .local _ .vmem, ⟨4, _⟩ => ⟨S8192, .f32⟩
  | .local _ .vmem, ⟨5, _⟩ => ⟨S8192, .f32⟩
  | .local _ .vmem, ⟨6, _⟩ => ⟨S8192, .f32⟩
  | .local _ .vmem, ⟨7, _⟩ => ⟨S8192, .f32⟩
  | .local _ .vmem, ⟨8, _⟩ => ⟨S8192, .f32⟩
  | .local _ .vmem, ⟨9, _⟩ => ⟨S1000, .f32⟩
  | .local _ .vmem, ⟨10, _⟩ => ⟨S1000, .f32⟩
  | .local _ .vmem, ⟨11, _⟩ => ⟨S1000, .f32⟩
  | _, _ => ⟨S10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_call0_v0 : Ref sig .tc := ⟨.hbm, 48, rfl⟩
abbrev main_v26 : Ref sig .tc := ⟨.hbm, 49, rfl⟩
abbrev main_c_6 : Ref sig .tc := ⟨.hbm, 50, rfl⟩
abbrev main_call1_v0 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_c_8 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc2_sem0_0 : DmaSem sig := 9
abbrev cc2_sem1_0 : DmaSem sig := 10
abbrev cc2_sem2_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![49], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 1 → Memref sig .tc .vmem S1000 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  inb_S10000_S10000_0 : ∀ a, (![0] : Fin 1 → Nat) a + S10000.size a ≤ S10000.size a
  h_S10000 : 0 < S10000.numel
  natLt_1_32 : 1 < 32
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S400000 : S_.BroadcastsInDim S400000 (![] : Fin 0 → Fin S400000.rank)
  bcast_S_S16000000 : S_.BroadcastsInDim S16000000 (![] : Fin 0 → Fin S16000000.rank)
  bcast_S16000000_S16000000x1_0 : S16000000.BroadcastsInDim S16000000x1 (![0] : Fin 1 → Fin S16000000x1.rank)
  pads_S400000_S401408_014080 : S400000.Pads (![0] : Fin 1 → Nat) ![1408] ![0] S401408
  h_S_ : 0 < S_.numel
  inb_S8192_S8192_0 : ∀ a, (![0] : Fin 1 → Nat) a + S8192.size a ≤ S8192.size a
  h_S8192 : 0 < S8192.numel
  shapeCasts_S8192_S8192 : S8192.ShapeCasts S8192
  slices_S401408_S400000_0 : S401408.Slices ![0] S400000
  bcast_S400000_S400000x1_0 : S400000.BroadcastsInDim S400000x1 (![0] : Fin 1 → Fin S400000x1.rank)
  bcast_S_S1000 : S_.BroadcastsInDim S1000 (![] : Fin 0 → Fin S1000.rank)
  inb_S1000_S1000_0 : ∀ a, (![0] : Fin 1 → Nat) a + S1000.size a ≤ S1000.size a
  h_S1000 : 0 < S1000.numel
  shapeCasts_S1000_S1000 : S1000.ShapeCasts S1000
  gather_S10000_S4000000x1_S4000000_n_0_n_n_0_1_1_wf : GatherDims.WF S10000 S4000000x1 S4000000 [] [0] [] [0] [] 1 ![1]
  scatter_S400000_S4000000x1_S4000000_n_0_0_1_wf : ScatterDims.WF S400000 S4000000x1 S4000000 [] [0] [0] 1
  gather_S400000_S16000000x1_S16000000_n_0_n_n_0_1_1_wf : GatherDims.WF S400000 S16000000x1 S16000000 [] [0] [] [0] [] 1 ![1]
  scatter_S400000_S16000000x1_S16000000_n_0_0_1_wf : ScatterDims.WF S400000 S16000000x1 S16000000 [] [0] [0] 1
  gather_S400000_S400000x1_S400000_n_0_n_n_0_1_1_wf : GatherDims.WF S400000 S400000x1 S400000 [] [0] [] [0] [] 1 ![1]
  scatter_S1000_S400000x1_S400000_n_0_0_1_wf : ScatterDims.WF S1000 S400000x1 S400000 [] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000.size a ≤ S10000.size a
  hwx0_0 : ∀ i : grid0.Coords, EltTy.bits .f32 = 32 ∨ (Rect.block (s := S10000) S10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000.size a ≤ S10000.size a
  hwx0_1 : ∀ i : grid0.Coords, EltTy.bits .f32 = 32 ∨ (Rect.block (s := S10000) S10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000.size a ≤ S10000.size a
  hwx0_2 : ∀ i : grid0.Coords, EltTy.bits .f32 = 32 ∨ (Rect.block (s := S10000) S10000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192.size a ≤ S401408.size a
  hwx1_0 : ∀ i : grid1.Coords, EltTy.bits .f32 = 32 ∨ (Rect.block (s := S401408) S8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192.size a ≤ S401408.size a
  hwx1_1 : ∀ i : grid1.Coords, EltTy.bits .f32 = 32 ∨ (Rect.block (s := S401408) S8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192.size a ≤ S401408.size a
  hwx1_2 : ∀ i : grid1.Coords, EltTy.bits .f32 = 32 ∨ (Rect.block (s := S401408) S8192.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1000.size a ≤ S1000.size a
  hwx2_0 : ∀ i : grid2.Coords, EltTy.bits .f32 = 32 ∨ (Rect.block (s := S1000) S1000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1000.size a ≤ S1000.size a
  hwx2_1 : ∀ i : grid2.Coords, EltTy.bits .f32 = 32 ∨ (Rect.block (s := S1000) S1000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1000.size a ≤ S1000.size a
  hwx2_2 : ∀ i : grid2.Coords, EltTy.bits .f32 = 32 ∨ (Rect.block (s := S1000) S1000.size (cc2_transform_2 i) (hinb2_2 i)).WholeWords (EltTy.packing .f32)

variable [Facts₀]

def gather_S10000_S4000000x1_S4000000_n_0_n_n_0_1_1 : GatherDims S10000 S4000000x1 S4000000 where
  offsetDims := []
  collapsedSliceDims := [0]
  operandBatchingDims := []
  startIndicesBatchingDims := []
  startIndexMap := [0]
  indexVectorDim := 1
  sliceSizes := ![1]
  wf := gather_S10000_S4000000x1_S4000000_n_0_n_n_0_1_1_wf
def scatter_S400000_S4000000x1_S4000000_n_0_0_1 : ScatterDims S400000 S4000000x1 S4000000 where
  updateWindowDims := []
  insertedWindowDims := [0]
  scatterDimsToOperandDims := [0]
  indexVectorDim := 1
  wf := scatter_S400000_S4000000x1_S4000000_n_0_0_1_wf
def gather_S400000_S16000000x1_S16000000_n_0_n_n_0_1_1 : GatherDims S400000 S16000000x1 S16000000 where
  offsetDims := []
  collapsedSliceDims := [0]
  operandBatchingDims := []
  startIndicesBatchingDims := []
  startIndexMap := [0]
  indexVectorDim := 1
  sliceSizes := ![1]
  wf := gather_S400000_S16000000x1_S16000000_n_0_n_n_0_1_1_wf
def scatter_S400000_S16000000x1_S16000000_n_0_0_1 : ScatterDims S400000 S16000000x1 S16000000 where
  updateWindowDims := []
  insertedWindowDims := [0]
  scatterDimsToOperandDims := [0]
  indexVectorDim := 1
  wf := scatter_S400000_S16000000x1_S16000000_n_0_0_1_wf
def gather_S400000_S400000x1_S400000_n_0_n_n_0_1_1 : GatherDims S400000 S400000x1 S400000 where
  offsetDims := []
  collapsedSliceDims := [0]
  operandBatchingDims := []
  startIndicesBatchingDims := []
  startIndexMap := [0]
  indexVectorDim := 1
  sliceSizes := ![1]
  wf := gather_S400000_S400000x1_S400000_n_0_n_n_0_1_1_wf
def scatter_S1000_S400000x1_S400000_n_0_0_1 : ScatterDims S1000 S400000x1 S400000 where
  updateWindowDims := []
  insertedWindowDims := [0]
  scatterDimsToOperandDims := [0]
  indexVectorDim := 1
  wf := scatter_S1000_S400000x1_S400000_n_0_0_1_wf

abbrev win0_0 : Pipeline.Window sig grid0 :=
  Pipeline.Window.ofSpec (Memref.whole main_arg1) S10000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S8192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg3) S1000.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1000.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000 : Shape := ⟨1, ![10000]⟩
abbrev S400000 : Shape := ⟨1, ![400000]⟩
abbrev S1000 : Shape := ⟨1, ![1000]⟩
abbrev S4000000 : Shape := ⟨1, ![4000000]⟩
abbrev S16000000 : Shape := ⟨1, ![16000000]⟩
abbrev S_ : Shape := ⟨0, ![]⟩
abbrev S4000000x1 : Shape := ⟨2, ![4000000, 1]⟩
abbrev S16000000x1 : Shape := ⟨2, ![16000000, 1]⟩
abbrev S400000x1 : Shape := ⟨2, ![400000, 1]⟩

abbrev nBuf : Space → Nat
  | .hbm => 108
  | .vmem => 0
  | .smem => 0
  | _ => 0

abbrev bufTy : (tb : Table) → Fin (tcTables nBuf tb) → BufTy
  | .hbm, ⟨0, _⟩ => ⟨S10000, .f32⟩
  | .hbm, ⟨1, _⟩ => ⟨S10000, .f32⟩
  | .hbm, ⟨2, _⟩ => ⟨S400000, .f32⟩
  | .hbm, ⟨3, _⟩ => ⟨S1000, .f32⟩
  | .hbm, ⟨4, _⟩ => ⟨S400000, .f32⟩
  | .hbm, ⟨5, _⟩ => ⟨S4000000, .f32⟩
  | .hbm, ⟨6, _⟩ => ⟨S16000000, .f32⟩
  | .hbm, ⟨7, _⟩ => ⟨S400000, .f32⟩
  | .hbm, ⟨8, _⟩ => ⟨S4000000, .i32⟩
  | .hbm, ⟨9, _⟩ => ⟨S4000000, .i32⟩
  | .hbm, ⟨10, _⟩ => ⟨S16000000, .i32⟩
  | .hbm, ⟨11, _⟩ => ⟨S16000000, .i32⟩
  | .hbm, ⟨12, _⟩ => ⟨S400000, .i32⟩
  | .hbm, ⟨13, _⟩ => ⟨S400000, .i32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .i1⟩
  | .hbm, ⟨27, _⟩ => ⟨S10000, .f32⟩
  | .hbm, ⟨28, _⟩ => ⟨S10000, .f32⟩
  | .hbm, ⟨29, _⟩ => ⟨S10000, .f32⟩
  | .hbm, ⟨30, _⟩ => ⟨S_, .i32⟩
  | .hbm, ⟨31, _⟩ => ⟨S4000000, .i32⟩
  | .hbm, ⟨32, _⟩ => ⟨S4000000, .i1⟩
  | .hbm, ⟨33, _⟩ => ⟨S_, .i32⟩
  | .hbm, ⟨34, _⟩ => ⟨S4000000, .i32⟩
  | .hbm, ⟨35, _⟩ => ⟨S4000000, .i32⟩
  | .hbm, ⟨36, _⟩ => ⟨S4000000, .i32⟩
  | .hbm, ⟨37, _⟩ => ⟨S4000000x1, .i32⟩
  | .hbm, ⟨38, _⟩ => ⟨S4000000, .f32⟩
  | .hbm, ⟨39, _⟩ => ⟨S4000000, .f32⟩
  | .hbm, ⟨40, _⟩ => ⟨S_, .f32⟩
  | .hbm, ⟨41, _⟩ => ⟨S400000, .f32⟩
  | .hbm, ⟨42, _⟩ => ⟨S4000000x1, .i32⟩
  | .hbm, ⟨43, _⟩ => ⟨S400000, .f32⟩
  | .hbm, ⟨44, _⟩ => ⟨S_, .i32⟩
  | .hbm, ⟨45, _⟩ => ⟨S16000000, .i32⟩
  | .hbm, ⟨46, _⟩ => ⟨S16000000, .i1⟩
  | .hbm, ⟨47, _⟩ => ⟨S_, .i32⟩
  | .hbm, ⟨48, _⟩ => ⟨S16000000, .i32⟩
  | .hbm, ⟨49, _⟩ => ⟨S16000000, .i32⟩
  | .hbm, ⟨50, _⟩ => ⟨S16000000, .i32⟩
  | .hbm, ⟨51, _⟩ => ⟨S16000000x1, .i32⟩
  | .hbm, ⟨52, _⟩ => ⟨S16000000, .f32⟩
  | .hbm, ⟨53, _⟩ => ⟨S16000000, .f32⟩
  | .hbm, ⟨54, _⟩ => ⟨S_, .f32⟩
  | .hbm, ⟨55, _⟩ => ⟨S400000, .f32⟩
  | .hbm, ⟨56, _⟩ => ⟨S16000000x1, .i32⟩
  | .hbm, ⟨57, _⟩ => ⟨S400000, .f32⟩
  | .hbm, ⟨58, _⟩ => ⟨S_, .f32⟩
  | .hbm, ⟨59, _⟩ => ⟨S400000, .f32⟩
  | .hbm, ⟨60, _⟩ => ⟨S400000, .f32⟩
  | .hbm, ⟨61, _⟩ => ⟨S400000, .f32⟩
  | .hbm, ⟨62, _⟩ => ⟨S_, .f32⟩
  | .hbm, ⟨63, _⟩ => ⟨S400000, .f32⟩
  | .hbm, ⟨64, _⟩ => ⟨S400000, .f32⟩
  | .hbm, ⟨65, _⟩ => ⟨S_, .f32⟩
  | .hbm, ⟨66, _⟩ => ⟨S400000, .f32⟩
  | .hbm, ⟨67, _⟩ => ⟨S400000, .f32⟩
  | .hbm, ⟨68, _⟩ => ⟨S400000, .f32⟩
  | .hbm, ⟨69, _⟩ => ⟨S_, .f32⟩
  | .hbm, ⟨70, _⟩ => ⟨S400000, .f32⟩
  | .hbm, ⟨71, _⟩ => ⟨S400000, .f32⟩
  | .hbm, ⟨72, _⟩ => ⟨S_, .f32⟩
  | .hbm, ⟨73, _⟩ => ⟨S400000, .f32⟩
  | .hbm, ⟨74, _⟩ => ⟨S400000, .i1⟩
  | .hbm, ⟨75, _⟩ => ⟨S400000, .f32⟩
  | .hbm, ⟨76, _⟩ => ⟨S400000, .f32⟩
  | .hbm, ⟨77, _⟩ => ⟨S400000, .f32⟩
  | .hbm, ⟨78, _⟩ => ⟨S_, .i32⟩
  | .hbm, ⟨79, _⟩ => ⟨S400000, .i32⟩
  | .hbm, ⟨80, _⟩ => ⟨S400000, .i1⟩
  | .hbm, ⟨81, _⟩ => ⟨S_, .i32⟩
  | .hbm, ⟨82, _⟩ => ⟨S400000, .i32⟩
  | .hbm, ⟨83, _⟩ => ⟨S400000, .i32⟩
  | .hbm, ⟨84, _⟩ => ⟨S400000, .i32⟩
  | .hbm, ⟨85, _⟩ => ⟨S400000x1, .i32⟩
  | .hbm, ⟨86, _⟩ => ⟨S400000, .f32⟩
  | .hbm, ⟨87, _⟩ => ⟨S400000, .f32⟩
  | .hbm, ⟨88, _⟩ => ⟨S_, .f32⟩
  | .hbm, ⟨89, _⟩ => ⟨S1000, .f32⟩
  | .hbm, ⟨90, _⟩ => ⟨S400000x1, .i32⟩
  | .hbm, ⟨91, _⟩ => ⟨S1000, .f32⟩
  | .hbm, ⟨92, _⟩ => ⟨S_, .f32⟩
  | .hbm, ⟨93, _⟩ => ⟨S1000, .f32⟩
  | .hbm, ⟨94, _⟩ => ⟨S1000, .f32⟩
  | .hbm, ⟨95, _⟩ => ⟨S_, .f32⟩
  | .hbm, ⟨96, _⟩ => ⟨S1000, .f32⟩
  | .hbm, ⟨97, _⟩ => ⟨S1000, .f32⟩
  | .hbm, ⟨98, _⟩ => ⟨S1000, .f32⟩
  | .hbm, ⟨99, _⟩ => ⟨S_, .f32⟩
  | .hbm, ⟨100, _⟩ => ⟨S1000, .f32⟩
  | .hbm, ⟨101, _⟩ => ⟨S1000, .f32⟩
  | .hbm, ⟨102, _⟩ => ⟨S_, .f32⟩
  | .hbm, ⟨103, _⟩ => ⟨S1000, .f32⟩
  | .hbm, ⟨104, _⟩ => ⟨S1000, .i1⟩
  | .hbm, ⟨105, _⟩ => ⟨S1000, .f32⟩
  | .hbm, ⟨106, _⟩ => ⟨S1000, .f32⟩
  | .hbm, ⟨107, _⟩ => ⟨S1000, .f32⟩
  | _, _ => ⟨S10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_v38 : Ref sig .tc := ⟨.hbm, 64, rfl⟩
abbrev main_cst_10 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_11 : Ref sig .tc := ⟨.hbm, 69, rfl⟩
abbrev main_v42 : Ref sig .tc := ⟨.hbm, 70, rfl⟩
abbrev main_v43 : Ref sig .tc := ⟨.hbm, 71, rfl⟩
abbrev main_cst_12 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_13 : Ref sig .tc := ⟨.hbm, 78, rfl⟩
abbrev main_v49 : Ref sig .tc := ⟨.hbm, 79, rfl⟩
abbrev main_v50 : Ref sig .tc := ⟨.hbm, 80, rfl⟩
abbrev main_c_14 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_16 : Ref sig .tc := ⟨.hbm, 92, rfl⟩
abbrev main_v60 : Ref sig .tc := ⟨.hbm, 93, rfl⟩
abbrev main_v61 : Ref sig .tc := ⟨.hbm, 94, rfl⟩
abbrev main_cst_17 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_18 : Ref sig .tc := ⟨.hbm, 99, rfl⟩
abbrev main_v65 : Ref sig .tc := ⟨.hbm, 100, rfl⟩
abbrev main_v66 : Ref sig .tc := ⟨.hbm, 101, rfl⟩
abbrev main_cst_19 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S400000 : S_.BroadcastsInDim S400000 (![] : Fin 0 → Fin S400000.rank)
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S400000_S400000x1_0 : S400000.BroadcastsInDim S400000x1 (![0] : Fin 1 → Fin S400000x1.rank)
  bcast_S_S1000 : S_.BroadcastsInDim S1000 (![] : Fin 0 → Fin S1000.rank)
  gather_S10000_S4000000x1_S4000000_n_0_n_n_0_1_1_wf : GatherDims.WF S10000 S4000000x1 S4000000 [] [0] [] [0] [] 1 ![1]
  scatter_S400000_S4000000x1_S4000000_n_0_0_1_wf : ScatterDims.WF S400000 S4000000x1 S4000000 [] [0] [0] 1
  gather_S400000_S16000000x1_S16000000_n_0_n_n_0_1_1_wf : GatherDims.WF S400000 S16000000x1 S16000000 [] [0] [] [0] [] 1 ![1]
  scatter_S400000_S16000000x1_S16000000_n_0_0_1_wf : ScatterDims.WF S400000 S16000000x1 S16000000 [] [0] [0] 1
  gather_S400000_S400000x1_S400000_n_0_n_n_0_1_1_wf : GatherDims.WF S400000 S400000x1 S400000 [] [0] [] [0] [] 1 ![1]
  scatter_S1000_S400000x1_S400000_n_0_0_1_wf : ScatterDims.WF S1000 S400000x1 S400000 [] [0] [0] 1

variable [Facts₀]

def gather_S10000_S4000000x1_S4000000_n_0_n_n_0_1_1 : GatherDims S10000 S4000000x1 S4000000 where
  offsetDims := []
  collapsedSliceDims := [0]
  operandBatchingDims := []
  startIndicesBatchingDims := []
  startIndexMap := [0]
  indexVectorDim := 1
  sliceSizes := ![1]
  wf := gather_S10000_S4000000x1_S4000000_n_0_n_n_0_1_1_wf
def scatter_S400000_S4000000x1_S4000000_n_0_0_1 : ScatterDims S400000 S4000000x1 S4000000 where
  updateWindowDims := []
  insertedWindowDims := [0]
  scatterDimsToOperandDims := [0]
  indexVectorDim := 1
  wf := scatter_S400000_S4000000x1_S4000000_n_0_0_1_wf
def gather_S400000_S16000000x1_S16000000_n_0_n_n_0_1_1 : GatherDims S400000 S16000000x1 S16000000 where
  offsetDims := []
  collapsedSliceDims := [0]
  operandBatchingDims := []
  startIndicesBatchingDims := []
  startIndexMap := [0]
  indexVectorDim := 1
  sliceSizes := ![1]
  wf := gather_S400000_S16000000x1_S16000000_n_0_n_n_0_1_1_wf
def scatter_S400000_S16000000x1_S16000000_n_0_0_1 : ScatterDims S400000 S16000000x1 S16000000 where
  updateWindowDims := []
  insertedWindowDims := [0]
  scatterDimsToOperandDims := [0]
  indexVectorDim := 1
  wf := scatter_S400000_S16000000x1_S16000000_n_0_0_1_wf
def gather_S400000_S400000x1_S400000_n_0_n_n_0_1_1 : GatherDims S400000 S400000x1 S400000 where
  offsetDims := []
  collapsedSliceDims := [0]
  operandBatchingDims := []
  startIndicesBatchingDims := []
  startIndexMap := [0]
  indexVectorDim := 1
  sliceSizes := ![1]
  wf := gather_S400000_S400000x1_S400000_n_0_n_n_0_1_1_wf
def scatter_S1000_S400000x1_S400000_n_0_0_1 : ScatterDims S1000 S400000x1 S400000 where
  updateWindowDims := []
  insertedWindowDims := [0]
  scatterDimsToOperandDims := [0]
  indexVectorDim := 1
  wf := scatter_S1000_S400000x1_S400000_n_0_0_1_wf

class Facts : Prop extends Facts₀ where

variable [Facts]
-- ==== Proof.KernelRun.lean ====
/-
  The idealized kernel's run with its result named.

  The program is three kernel regions among stretches of host operations.  Its run is a walk through those segments in
  order, and at every boundary between two segments the contents of every buffer are a fold from the launch memory: a
  stretch of host operations applies its operations to the contents before it; a region leaves each of its arrays at
  what its grid points wrote back and every other buffer as it found it.  The contents at the last boundary are
  `Gen.W8`.  Stated here: every weakly fair execution terminates, nothing faulting, with the result buffer at
  `Gen.W8 m ρ c` of it and every argument as launched.  What that fold is, as a function of the arguments, is the
  business of the modules that import this one.
-/
import proofs.«162130_j71751723647586_1_alg».proof.Proof.Gen.KernelIdeal.Frame

set_option maxRecDepth 16384

noncomputable section

namespace Cert.KernelIdeal.Ends

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core at
    the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The same run with the result buffer and the fourteen arguments read out: the result at the last boundary's
    contents, each argument as launched. -/
theorem run_result : θ_run defs (onTc (τ := τ) (main (F := F))) ⟨m, fun _ => 0, ρ⟩ (fun r => ∀ c : Dev nD,
      r.2.mem ((c.tc : Thread nD τ).loc main_v41) = W8 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)
    (run_boundary m ρ)

end Cert.KernelIdeal.Ends

end
-- ==== Proof.LibBitReads.lean ====
/-
  Two small facts at the ideal values (extended reals), for any kernel that turns a comparison's one-bit word into a
  float and any reference that takes a maximum over an axis of three.

  A one-bit word widened to 32 bits without sign and then read as a signed integer (what a vector unit does for a
  boolean cast to float) is the word read as an unsigned integer (what the host's conversion of a boolean does): both
  are 0 or 1. And the fold of `max` from -∞ over three entries is the largest of the three.
-/
import Idealize.ShloMosaic.PureOps.Ideal.Laws
import Mathlib.Data.Finset.Fold

noncomputable section

namespace Cert.LibBitReads

open Idealize.ShloMosaic

/-- A one-bit word widened to 32 bits and read signed is the word read unsigned, as integers. -/
theorem toInt_setWidth_one (b : BitVec 1) : (b.setWidth 32).toInt = (b.toNat : ℤ) := by
  revert b; decide

/-- The same as extended reals. -/
theorem signedWide_eq_unsigned (b : BitVec 1) : (((b.setWidth 32).toInt : ℝ) : EReal) = ((b.toNat : ℝ) : EReal) := by
  rw [toInt_setWidth_one b]
  norm_cast

/-- The same as the two conversions of the ideal instance, at any float format: the signed conversion of the widened
    word is the unsigned conversion of the word. -/
theorem sitofp_setWidth_eq_uitofp (φ : FTy) (b : BitVec 1) :
    FloatOps.sitofp (F := Ideal) φ (b.setWidth 32) = FloatOps.uitofp (F := Ideal) φ b :=
  signedWide_eq_unsigned b

/-- The f32 word 0xFF800000 is -∞. -/
theorem ofBits_negInf_f32 : Ideal.ofBits .f32 0xFF800000#32 = ⊥ := by simp [Ideal.ofBits, Ideal.ieee]

/-- The fold of `max` from -∞ over three entries is the largest of them. -/
theorem fold_max_three (L : Fin 3 → EReal) :
    (Finset.univ : Finset (Fin 3)).fold max ⊥ L = max (max (L 0) (L 1)) (L 2) := by
  apply le_antisymm
  · refine (Finset.fold_max_le _).mpr ⟨bot_le, fun x _ => ?_⟩
    fin_cases x
    · exact le_max_of_le_left (le_max_left _ _)
    · exact le_max_of_le_left (le_max_right _ _)
    · exact le_max_right _ _
  · exact max_le (max_le ((Finset.le_fold_max _).mpr (Or.inr ⟨0, Finset.mem_univ _, le_rfl⟩))
      ((Finset.le_fold_max _).mpr (Or.inr ⟨1, Finset.mem_univ _, le_rfl⟩)))
      ((Finset.le_fold_max _).mpr (Or.inr ⟨2, Finset.mem_univ _, le_rfl⟩))

end Cert.LibBitReads

end
-- ==== Proof.LibThreshold.lean ====
/-
  The threshold step of a leaky integrate-and-fire neuron, in the two arrangements a vector unit and a host program
  write it, and the law that they are one function on the extended reals.

  With a leak word `a`, a scale word `s` and a threshold word `t`, a neuron with membrane value `x` and input `y` fires
  when `a·x + s·y` exceeds `t`.  The vector unit compares `a·x + s·y` with `t`, widens the one-bit answer to 32 bits and
  reads it as a signed integer (a boolean cast to float).  The host first subtracts the threshold, compares
  `a·x + y·s - t` with 0, and reads the one-bit answer as an unsigned integer.  On the extended reals `0 < v - t` iff
  `t < v` for EVERY `v` and `t`, the infinities included (no finiteness is used), the product commutes, and a one-bit
  word reads the same signed after widening as unsigned.  The three words stay words: none is evaluated.
-/
import Idealize.ShloMosaic.PureOps.Ideal.Laws
import proofs.«162130_j71751723647586_1_alg».proof.Proof.LibBitReads

noncomputable section

namespace Cert.Snn

open Idealize.ShloMosaic

/-- The vector unit's arrangement, at any float values: compare `a·x + s·y` with `t`, widen, read signed. -/
def spikeK {F : FTy → Type} [FloatOps F] (wa ws wt : BitVec 32) (x y : F .f32) : F .f32 :=
  FloatOps.sitofp .f32 ((FloatOps.cmpf .ogt (FloatOps.addf (FloatOps.mulf (Scalar.ofBits .f32 wa) x)
    (FloatOps.mulf (Scalar.ofBits .f32 ws) y)) (Scalar.ofBits .f32 wt)).setWidth 32)

/-- The host's arrangement, at the extended reals: compare `a·x + y·s - t` with 0, read unsigned. -/
def spikeR (wa ws wt : BitVec 32) (x y : Ideal .f32) : Ideal .f32 :=
  FloatOps.uitofp (F := Ideal) .f32 (FloatOps.cmpf .ogt (FloatOps.subf (FloatOps.addf
    (FloatOps.mulf (FloatOps.ofBits (F := Ideal) .f32 wa) x) (FloatOps.mulf y (FloatOps.ofBits (F := Ideal) .f32 ws)))
    (FloatOps.ofBits (F := Ideal) .f32 wt)) (FloatOps.ofBits (F := Ideal) .f32 0x00000000#32))

/-- THE LAW: the two arrangements are one function of `x` and `y`, for every pair of extended reals and any three
    words. -/
theorem spikeK_eq_spikeR (wa ws wt : BitVec 32) (x y : Ideal .f32) :
    spikeK (F := Ideal) wa ws wt x y = spikeR wa ws wt x y := by
  unfold spikeK spikeR
  rw [Cert.LibBitReads.sitofp_setWidth_eq_uitofp]
  refine congrArg (FloatOps.uitofp (F := Ideal) .f32) ?_
  have hs : ∀ b : BitVec 32, Scalar.ofBits (F := Ideal) .f32 b = Ideal.ofBits .f32 b := fun _ => rfl
  simp only [Ideal.cmpf_def, Ideal.cmp, Ideal.addf_def, Ideal.mulf_def, Ideal.subf_def, Ideal.ofBits_def, hs,
    Ideal.ofBits_zero_f32]
  refine congrArg BitVec.ofBool ?_
  rw [mul_comm y (Ideal.ofBits .f32 ws)]
  exact decide_eq_decide.mpr EReal.sub_pos.symm

end Cert.Snn

end
-- ==== Proof.Sensory.lean ====
/-
  Region 0 (the sensory population, 10000 neurons, one grid point whose block is the whole array): what the region
  leaves in its output array, as one function of the two arrays it reads, whatever the buffers hold when it is entered.

  The body loads the membrane block and the input block whole, applies the threshold step entry by entry and stores the
  result whole.  The one grid point's block of each window is the whole array (block index 0, block size 10000), so entry
  `i` of the output array ends at the threshold step of entry `i` of the membrane array and entry `i` of the input array.
-/
import proofs.«162130_j71751723647586_1_alg».proof.Proof.Gen.KernelIdeal.Frame
import proofs.«162130_j71751723647586_1_alg».proof.Proof.LibThreshold
import Idealize.ShloMosaic.Lib.Pipeline.Value

set_option maxRecDepth 16384

noncomputable section

namespace Cert.KernelIdeal.Sensory

open Cert.KernelIdeal Cert.KernelIdeal.Gen Cert.Snn
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The threshold step of a whole array: entry `i` from entry `i` of the membrane array and of the input array. -/
abbrev fired (mem inp : S10000.Idx → Elt F .f32) : S10000.Idx → Elt F .f32 := fun i => spikeK 0x3F666666#32 0x40A00000#32 0x3F800000#32 (mem i) (inp i)

theorem hz : (![0] : Fin 1 → Nat) = fun _ => 0 := funext fun a => by fin_cases a; rfl

/-- The body's stored value is the threshold step of its two loaded blocks, entry by entry. -/
theorem pay_eq (x0 x1 : Vec F S10000 .f32) : k0_pay1 x0 x1 = fun j => spikeK 0x3F666666#32 0x40A00000#32 0x3F800000#32 (x0 j) (x1 j) := rfl

/-- The printed index maps at the one grid point: all three windows sit at block 0. -/
theorem idx_facts : ∀ t : Fin cfg0.N, win0_0.index t (0 : Fin 1) = 0 ∧ win0_1.index t (0 : Fin 1) = 0 ∧ win0_2.index t (0 : Fin 1) = 0 :=
  (by decide +kernel : ∀ t : Fin grid0.N, _)

/-- What a grid point writes back is its block of the threshold step of the two arrays as the region finds them. -/
theorem flushed_eq (c : Dev nD) (t : Fin cfg0.N) :
    (dat0 V c).flushed 2 t = ((cfg0.win 2).blk t).view.read (Elt F) (fired (V c main_arg1) (V c main_arg0)) := by
  show (cfg0.win 2).cut (grid0.coords t) ((dat0 V c).after 2 t) = _
  rw [after0_2]
  unfold out0_2
  rw [View.canon_unit_zero hz]
  simp only [View.ld_unit_zero (S := S10000) hz]
  rw [pay_eq]
  obtain ⟨e0, e1, e2⟩ := idx_facts t
  funext j
  show spikeK 0x3F666666#32 0x40A00000#32 0x3F800000#32 (V c main_arg1 (((cfg0.win 0).blk t).view.emb j)) (V c main_arg0 (((cfg0.win 1).blk t).view.emb j))
    = spikeK 0x3F666666#32 0x40A00000#32 0x3F800000#32 (V c main_arg1 (((cfg0.win 2).blk t).view.emb j)) (V c main_arg0 (((cfg0.win 2).blk t).view.emb j))
  have h0 : ((cfg0.win 0).blk t).view.emb j = ((cfg0.win 2).blk t).view.emb j := by
    funext a; apply Fin.ext
    match a with
    | ⟨0, _⟩ => show win0_0.index t (0 : Fin 1) * 10000 + 1 * (j 0).val = win0_2.index t (0 : Fin 1) * 10000 + 1 * (j 0).val; omega
  have h1 : ((cfg0.win 1).blk t).view.emb j = ((cfg0.win 2).blk t).view.emb j := by
    funext a; apply Fin.ext
    match a with
    | ⟨0, _⟩ => show win0_1.index t (0 : Fin 1) * 10000 + 1 * (j 0).val = win0_2.index t (0 : Fin 1) * 10000 + 1 * (j 0).val; omega
  rw [h0, h1]

/-- An index is in a point's block iff its coordinate is in the block's range. -/
theorem mem_blk (t : Fin cfg0.N) (i : S10000.Idx) :
    i ∈ ((cfg0.win 2).blk t).view.set ↔ ∀ a : Fin 1, win0_2.index t a * S10000.size a ≤ (i a).val ∧ (i a).val < win0_2.index t a * S10000.size a + S10000.size a := by
  show i ∈ ((View.whole main_v0).slice (win0_2.rect t)).set ↔ _
  rw [View.set_slice_whole, Rect.mem_set_unit]
  exact Iff.rfl

/-- Every index of the output array is in the one point's block. -/
theorem cover (i : S10000.Idx) : ∃ t : Fin cfg0.N, (cfg0.win 2).flush t = true ∧ i ∈ ((cfg0.win 2).blk t).view.set := by
  refine ⟨t0_0, flush0_2 _, ?_⟩
  rw [mem_blk]
  obtain ⟨_, _, e2⟩ := idx_facts t0_0
  intro a
  match a with
  | ⟨0, _⟩ =>
    show win0_2.index t0_0 (0 : Fin 1) * 10000 ≤ (i 0).val ∧ (i 0).val < win0_2.index t0_0 (0 : Fin 1) * 10000 + 10000
    have hi : (i 0).val < 10000 := (i 0).isLt
    omega

/-- THE OUTPUT ARRAY after the region: the threshold step of the membrane array and the input array as the region finds
    them, entry by entry. -/
theorem array_eq (c : Dev nD) : (dat0 V c).arrAt 2 cfg0.N = fired (V c main_arg1) (V c main_arg0) :=
  (dat0 V c).arrAt_eq_of_cover 2 _ (fun t _ => flushed_eq V c t) cover

end Cert.KernelIdeal.Sensory

end
-- ==== Proof.Spec.lean ====
/-
  What the network computes, as ONE function of its fourteen argument arrays, written in the arrangement of the
  reference program.

  Three populations of leaky integrate-and-fire neurons (sensory 10000, hidden 400000, motor 1000) joined by three
  lists of weighted edges.  A population fires where `0.9·membrane + scale·input` exceeds 1 (the threshold step).  The
  current into a population is, for each of its neurons, the sum over the edges that end there of the edge's weight
  times the spike of the neuron the edge starts from — a gather of the spikes along the edges, a product with the
  weights, and a sum of the products by target neuron; the hidden population also receives half of the same sum over
  the recurrent edges, taken of the previous step's hidden spikes.

    sensory spikes  = step(sensory membrane, sensory input; scale 5)
    hidden current  = sum over sensory→hidden edges  +  ½ · sum over hidden→hidden edges of the previous spikes
    hidden spikes   = step(hidden membrane, hidden current; scale 5)
    motor current   = sum over hidden→motor edges
    result          = step(motor membrane, motor current; scale 20)

  The two sums over edges are carried as they are written: both programs apply the same operations to them, so nothing
  about them is ever opened.  Only the threshold step differs between the two programs, and for it the law of the two
  arrangements is restated here for whole arrays.
-/
import proofs.«162130_j71751723647586_1_alg».proof.Proof.Gen.ReferenceIdeal
import proofs.«162130_j71751723647586_1_alg».proof.Proof.LibThreshold

noncomputable section

namespace Cert.Snn

open Cert.ReferenceIdeal Cert.ReferenceIdeal.Gen Idealize.ShloMosaic Idealize.ShloMosaic.TcCoe

/-- The sensory population's spikes from the sensory input `a0` and the sensory membrane `a1`. -/
def sensory (a0 a1 : FVec Ideal S10000 .f32) : FVec Ideal S10000 .f32 :=
  uitofp .f32 (cmpf .ogt (subf (addf (mulf (broadcastInDim S10000 ![] bcast_S_S10000 (constant (F := Ideal) S_ .f32 0x3F666666#32)) a1) (mulf a0 (broadcastInDim S10000 ![] bcast_S_S10000 (constant (F := Ideal) S_ .f32 0x40A00000#32)))) (broadcastInDim S10000 ![] bcast_S_S10000 (constant (F := Ideal) S_ .f32 0x3F800000#32))) (broadcastInDim S10000 ![] bcast_S_S10000 (constant (F := Ideal) S_ .f32 0x00000000#32)))

/-- The current into the hidden population from the sensory spikes `s` along the sensory→hidden edges (weights `a5`,
    sources `a8`, targets `a9`) plus half the current from the previous hidden spikes `a4` along the recurrent edges
    (weights `a6`, sources `a10`, targets `a11`). -/
def hiddenCurrent (s : FVec Ideal S10000 .f32) (a4 : FVec Ideal S400000 .f32) (a5 : FVec Ideal S4000000 .f32)
    (a6 : FVec Ideal S16000000 .f32) (a8 a9 : IVec S4000000 32) (a10 a11 : IVec S16000000 32) : FVec Ideal S400000 .f32 :=
  addf (Host.scatterAdd (F := Ideal) scatter_S400000_S4000000x1_S4000000_n_0_0_1 (broadcastInDim S400000 ![] bcast_S_S400000 (constant (F := Ideal) S_ .f32 0x00000000#32)) (broadcastInDim S4000000x1 ![0] bcast_S4000000_S4000000x1_0 a9) (mulf a5 (Host.gather gather_S10000_S4000000x1_S4000000_n_0_n_n_0_1_1 s (broadcastInDim S4000000x1 ![0] bcast_S4000000_S4000000x1_0 (select (cmpi .slt a8 (broadcastInDim S4000000 ![] bcast_S_S4000000 (constantI S_ 32 0#32))) (addi a8 (broadcastInDim S4000000 ![] bcast_S_S4000000 (constantI S_ 32 10000#32))) a8))))) (mulf (broadcastInDim S400000 ![] bcast_S_S400000 (constant (F := Ideal) S_ .f32 0x3F000000#32)) (Host.scatterAdd (F := Ideal) scatter_S400000_S16000000x1_S16000000_n_0_0_1 (broadcastInDim S400000 ![] bcast_S_S400000 (constant (F := Ideal) S_ .f32 0x00000000#32)) (broadcastInDim S16000000x1 ![0] bcast_S16000000_S16000000x1_0 a11) (mulf a6 (Host.gather gather_S400000_S16000000x1_S16000000_n_0_n_n_0_1_1 a4 (broadcastInDim S16000000x1 ![0] bcast_S16000000_S16000000x1_0 (select (cmpi .slt a10 (broadcastInDim S16000000 ![] bcast_S_S16000000 (constantI S_ 32 0#32))) (addi a10 (broadcastInDim S16000000 ![] bcast_S_S16000000 (constantI S_ 32 400000#32))) a10))))))

/-- The hidden population's spikes from its input current `h` and its membrane `a2`. -/
def hidden (h a2 : FVec Ideal S400000 .f32) : FVec Ideal S400000 .f32 :=
  uitofp .f32 (cmpf .ogt (subf (addf (mulf (broadcastInDim S400000 ![] bcast_S_S400000 (constant (F := Ideal) S_ .f32 0x3F666666#32)) a2) (mulf h (broadcastInDim S400000 ![] bcast_S_S400000 (constant (F := Ideal) S_ .f32 0x40A00000#32)))) (broadcastInDim S400000 ![] bcast_S_S400000 (constant (F := Ideal) S_ .f32 0x3F800000#32))) (broadcastInDim S400000 ![] bcast_S_S400000 (constant (F := Ideal) S_ .f32 0x00000000#32)))

/-- The current into the motor population from the hidden spikes `h` along the hidden→motor edges (weights `a7`,
    sources `a12`, targets `a13`). -/
def motorCurrent (h : FVec Ideal S400000 .f32) (a7 : FVec Ideal S400000 .f32) (a12 a13 : IVec S400000 32) : FVec Ideal S1000 .f32 :=
  Host.scatterAdd (F := Ideal) scatter_S1000_S400000x1_S400000_n_0_0_1 (broadcastInDim S1000 ![] bcast_S_S1000 (constant (F := Ideal) S_ .f32 0x00000000#32)) (broadcastInDim S400000x1 ![0] bcast_S400000_S400000x1_0 a13) (mulf a7 (Host.gather gather_S400000_S400000x1_S400000_n_0_n_n_0_1_1 h (broadcastInDim S400000x1 ![0] bcast_S400000_S400000x1_0 (select (cmpi .slt a12 (broadcastInDim S400000 ![] bcast_S_S400000 (constantI S_ 32 0#32))) (addi a12 (broadcastInDim S400000 ![] bcast_S_S400000 (constantI S_ 32 400000#32))) a12))))

/-- The motor population's spikes from its input current `x` and its membrane `a3`. -/
def motor (x a3 : FVec Ideal S1000 .f32) : FVec Ideal S1000 .f32 :=
  uitofp .f32 (cmpf .ogt (subf (addf (mulf (broadcastInDim S1000 ![] bcast_S_S1000 (constant (F := Ideal) S_ .f32 0x3F666666#32)) a3) (mulf x (broadcastInDim S1000 ![] bcast_S_S1000 (constant (F := Ideal) S_ .f32 0x41A00000#32)))) (broadcastInDim S1000 ![] bcast_S_S1000 (constant (F := Ideal) S_ .f32 0x3F800000#32))) (broadcastInDim S1000 ![] bcast_S_S1000 (constant (F := Ideal) S_ .f32 0x00000000#32)))

/-- THE RESULT as one function of the fourteen arguments. -/
def G (a0 a1 : FVec Ideal S10000 .f32) (a2 : FVec Ideal S400000 .f32) (a3 : FVec Ideal S1000 .f32) (a4 : FVec Ideal S400000 .f32)
    (a5 : FVec Ideal S4000000 .f32) (a6 : FVec Ideal S16000000 .f32) (a7 : FVec Ideal S400000 .f32)
    (a8 a9 : IVec S4000000 32) (a10 a11 : IVec S16000000 32) (a12 a13 : IVec S400000 32) : FVec Ideal S1000 .f32 :=
  motor (motorCurrent (hidden (hiddenCurrent (sensory a0 a1) a4 a5 a6 a8 a9 a10 a11) a2) a7 a12 a13) a3

/-- Each threshold step, entry by entry, is the host's arrangement of the step. -/
theorem sensory_apply (a0 a1 : FVec Ideal S10000 .f32) (i : S10000.Idx) :
    sensory a0 a1 i = spikeR 0x3F666666#32 0x40A00000#32 0x3F800000#32 (a1 i) (a0 i) := rfl
theorem hidden_apply (h a2 : FVec Ideal S400000 .f32) (i : S400000.Idx) :
    hidden h a2 i = spikeR 0x3F666666#32 0x40A00000#32 0x3F800000#32 (a2 i) (h i) := rfl
theorem motor_apply (x a3 : FVec Ideal S1000 .f32) (i : S1000.Idx) :
    motor x a3 i = spikeR 0x3F666666#32 0x41A00000#32 0x3F800000#32 (a3 i) (x i) := rfl

/-- Hence each is the vector unit's arrangement of the step, as whole arrays (the law of the two arrangements). -/
theorem sensory_eq (a0 a1 : FVec Ideal S10000 .f32) :
    sensory a0 a1 = fun i => spikeK (F := Ideal) 0x3F666666#32 0x40A00000#32 0x3F800000#32 (a1 i) (a0 i) :=
  funext fun i => (sensory_apply a0 a1 i).trans (spikeK_eq_spikeR _ _ _ _ _).symm
theorem hidden_eq (h a2 : FVec Ideal S400000 .f32) :
    hidden h a2 = fun i => spikeK (F := Ideal) 0x3F666666#32 0x40A00000#32 0x3F800000#32 (a2 i) (h i) :=
  funext fun i => (hidden_apply h a2 i).trans (spikeK_eq_spikeR _ _ _ _ _).symm
theorem motor_eq (x a3 : FVec Ideal S1000 .f32) :
    motor x a3 = fun i => spikeK (F := Ideal) 0x3F666666#32 0x41A00000#32 0x3F800000#32 (a3 i) (x i) :=
  funext fun i => (motor_apply x a3 i).trans (spikeK_eq_spikeR _ _ _ _ _).symm

end Cert.Snn

end
-- ==== Proof.Upto.lean ====
/-
  The contents of the buffers at the boundaries between the program's segments, read down to the arguments — first
  part: up to the current into the hidden population.

  After the first region the sensory spikes' buffer holds the threshold step of the sensory membrane and the sensory
  input, and no argument has changed.  The host operations that follow gather those spikes along the sensory→hidden
  edges, weigh and sum them by target, and add half the same sum of the previous hidden spikes over the recurrent edges:
  the hidden current of the specification, of the spikes and the arguments as they stand at that boundary.
-/
import proofs.«162130_j71751723647586_1_alg».proof.Proof.Gen.KernelIdeal.Frame
import proofs.«162130_j71751723647586_1_alg».proof.Proof.Sensory
import proofs.«162130_j71751723647586_1_alg».proof.Proof.Spec

set_option maxRecDepth 16384

noncomputable section

namespace Cert.KernelIdeal.Upto

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the first region the sensory spikes are the specification's, of the arguments. -/
theorem spikes0 : W1 m ρ c (Proc.devRef .tc main_v0) = Cert.Snn.sensory (m ((c : Thread nD τ).loc main_arg0)) (m ((c : Thread nD τ).loc main_arg1)) := by
  rw [Cert.Snn.sensory_eq]
  exact (W1_arr m ρ c 2).trans (Cert.KernelIdeal.Sensory.array_eq (V0 m ρ) c)

/-! The first region changes no argument. -/
theorem at1_arg2 : W1 m ρ c (Proc.devRef .tc main_arg2) = m ((c : Thread nD τ).loc main_arg2) :=
  W1_of_ne m ρ c main_arg2 (by decide)
theorem at1_arg3 : W1 m ρ c (Proc.devRef .tc main_arg3) = m ((c : Thread nD τ).loc main_arg3) :=
  W1_of_ne m ρ c main_arg3 (by decide)
theorem at1_arg4 : W1 m ρ c (Proc.devRef .tc main_arg4) = m ((c : Thread nD τ).loc main_arg4) :=
  W1_of_ne m ρ c main_arg4 (by decide)
theorem at1_arg5 : W1 m ρ c (Proc.devRef .tc main_arg5) = m ((c : Thread nD τ).loc main_arg5) :=
  W1_of_ne m ρ c main_arg5 (by decide)
theorem at1_arg6 : W1 m ρ c (Proc.devRef .tc main_arg6) = m ((c : Thread nD τ).loc main_arg6) :=
  W1_of_ne m ρ c main_arg6 (by decide)
theorem at1_arg7 : W1 m ρ c (Proc.devRef .tc main_arg7) = m ((c : Thread nD τ).loc main_arg7) :=
  W1_of_ne m ρ c main_arg7 (by decide)
theorem at1_arg8 : W1 m ρ c (Proc.devRef .tc main_arg8) = m ((c : Thread nD τ).loc main_arg8) :=
  W1_of_ne m ρ c main_arg8 (by decide)
theorem at1_arg9 : W1 m ρ c (Proc.devRef .tc main_arg9) = m ((c : Thread nD τ).loc main_arg9) :=
  W1_of_ne m ρ c main_arg9 (by decide)
theorem at1_arg10 : W1 m ρ c (Proc.devRef .tc main_arg10) = m ((c : Thread nD τ).loc main_arg10) :=
  W1_of_ne m ρ c main_arg10 (by decide)
theorem at1_arg11 : W1 m ρ c (Proc.devRef .tc main_arg11) = m ((c : Thread nD τ).loc main_arg11) :=
  W1_of_ne m ρ c main_arg11 (by decide)
theorem at1_arg12 : W1 m ρ c (Proc.devRef .tc main_arg12) = m ((c : Thread nD τ).loc main_arg12) :=
  W1_of_ne m ρ c main_arg12 (by decide)
theorem at1_arg13 : W1 m ρ c (Proc.devRef .tc main_arg13) = m ((c : Thread nD τ).loc main_arg13) :=
  W1_of_ne m ρ c main_arg13 (by decide)

set_option maxHeartbeats 4000000 in
/-- The first stretch of host operations computes the hidden current of what it finds. -/
theorem current1_raw : W2 m ρ c (Proc.devRef .tc main_v25)
    = Cert.Snn.hiddenCurrent (W1 m ρ c (Proc.devRef .tc main_v0)) (W1 m ρ c (Proc.devRef .tc main_arg4)) (W1 m ρ c (Proc.devRef .tc main_arg5)) (W1 m ρ c (Proc.devRef .tc main_arg6)) (W1 m ρ c (Proc.devRef .tc main_arg8)) (W1 m ρ c (Proc.devRef .tc main_arg9)) (W1 m ρ c (Proc.devRef .tc main_arg10)) (W1 m ρ c (Proc.devRef .tc main_arg11)) := by
  show StableHlo.after hostOps1 (W1 m ρ c) (Proc.devRef .tc main_v25) = _
  after_results_simp
  rfl

/-- The hidden current at that boundary is the specification's, of the arguments. -/
theorem current1 : W2 m ρ c (Proc.devRef .tc main_v25)
    = Cert.Snn.hiddenCurrent (Cert.Snn.sensory (m ((c : Thread nD τ).loc main_arg0)) (m ((c : Thread nD τ).loc main_arg1))) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) := by
  rw [current1_raw, spikes0, at1_arg4, at1_arg5, at1_arg6, at1_arg8, at1_arg9, at1_arg10, at1_arg11]

end Cert.KernelIdeal.Upto

end
-- ==== Proof.Hidden.lean ====
/-
  Region 1 (the hidden population, padded to 401408 = 49 · 8192 entries and walked in 49 blocks of 8192): what the
  region leaves in its output array, as one function of the two arrays it reads, whatever the buffers hold when it is
  entered.

  At grid point `t` every window sits at block `t`: the body loads entries `8192·t … 8192·t + 8191` of the membrane
  array and of the input array (each through a cast of its shape to itself, which changes nothing), applies the threshold
  step entry by entry and stores the result over the same entries of the output array.  Entry `i` of the output array
  is in the block of point `i / 8192` and of no other, and the 49 blocks fill the array; so entry `i` ends at the
  threshold step of entry `i` of the membrane array and entry `i` of the input array.
-/
import proofs.«162130_j71751723647586_1_alg».proof.Proof.Gen.KernelIdeal.Frame
import proofs.«162130_j71751723647586_1_alg».proof.Proof.LibThreshold
import Idealize.ShloMosaic.Lib.Pipeline.Value

set_option maxRecDepth 16384

noncomputable section

namespace Cert.KernelIdeal.Hidden

open Cert.KernelIdeal Cert.KernelIdeal.Gen Cert.Snn
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The threshold step of a whole array: entry `i` from entry `i` of the membrane array and of the input array. -/
abbrev fired (mem inp : S401408.Idx → Elt F .f32) : S401408.Idx → Elt F .f32 := fun i => spikeK 0x3F666666#32 0x40A00000#32 0x3F800000#32 (mem i) (inp i)

theorem hz : (![0] : Fin 1 → Nat) = fun _ => 0 := funext fun a => by fin_cases a; rfl

/-- The body's stored value is the threshold step of its two loaded blocks, entry by entry. -/
theorem pay_eq (x0 x1 : Vec F S8192 .f32) : k1_pay1 x0 x1 = fun j => spikeK 0x3F666666#32 0x40A00000#32 0x3F800000#32 (x0 j) (x1 j) := by
  unfold k1_pay1
  simp only [shapeCast_self]
  rfl

/-- The printed index maps, decided over the 49 grid points: at point `t` all three windows sit at block `t`. -/
theorem idx_facts : ∀ t : Fin cfg1.N, win1_0.index t (0 : Fin 1) = t.val ∧ win1_1.index t (0 : Fin 1) = t.val ∧ win1_2.index t (0 : Fin 1) = t.val :=
  (by decide +kernel : ∀ t : Fin grid1.N, _)

/-- What a grid point writes back is its block of the threshold step of the two arrays as the region finds them. -/
theorem flushed_eq (c : Dev nD) (t : Fin cfg1.N) :
    (dat1 V c).flushed 2 t = ((cfg1.win 2).blk t).view.read (Elt F) (fired (V c main_v26) (V c main_v27)) := by
  show (cfg1.win 2).cut (grid1.coords t) ((dat1 V c).after 2 t) = _
  rw [after1_2]
  unfold out1_2
  rw [View.canon_unit_zero hz]
  simp only [View.ld_unit_zero (S := S8192) hz]
  rw [pay_eq]
  obtain ⟨e0, e1, e2⟩ := idx_facts t
  funext j
  show spikeK 0x3F666666#32 0x40A00000#32 0x3F800000#32 (V c main_v26 (((cfg1.win 0).blk t).view.emb j)) (V c main_v27 (((cfg1.win 1).blk t).view.emb j))
    = spikeK 0x3F666666#32 0x40A00000#32 0x3F800000#32 (V c main_v26 (((cfg1.win 2).blk t).view.emb j)) (V c main_v27 (((cfg1.win 2).blk t).view.emb j))
  have h0 : ((cfg1.win 0).blk t).view.emb j = ((cfg1.win 2).blk t).view.emb j := by
    funext a; apply Fin.ext
    match a with
    | ⟨0, _⟩ => show win1_0.index t (0 : Fin 1) * 8192 + 1 * (j 0).val = win1_2.index t (0 : Fin 1) * 8192 + 1 * (j 0).val; omega
  have h1 : ((cfg1.win 1).blk t).view.emb j = ((cfg1.win 2).blk t).view.emb j := by
    funext a; apply Fin.ext
    match a with
    | ⟨0, _⟩ => show win1_1.index t (0 : Fin 1) * 8192 + 1 * (j 0).val = win1_2.index t (0 : Fin 1) * 8192 + 1 * (j 0).val; omega
  rw [h0, h1]

/-- An index is in a point's block iff its coordinate is in the block's range. -/
theorem mem_blk (t : Fin cfg1.N) (i : S401408.Idx) :
    i ∈ ((cfg1.win 2).blk t).view.set ↔ ∀ a : Fin 1, win1_2.index t a * S8192.size a ≤ (i a).val ∧ (i a).val < win1_2.index t a * S8192.size a + S8192.size a := by
  show i ∈ ((View.whole main_v28).slice (win1_2.rect t)).set ↔ _
  rw [View.set_slice_whole, Rect.mem_set_unit]
  exact Iff.rfl

/-- Every index of the output array is in the block of the point `i / 8192`. -/
theorem cover (i : S401408.Idx) : ∃ t : Fin cfg1.N, (cfg1.win 2).flush t = true ∧ i ∈ ((cfg1.win 2).blk t).view.set := by
  have hi : (i 0).val < 401408 := (i 0).isLt
  have hN : cfg1.N = 49 := N_1
  let t : Fin cfg1.N := ⟨(i 0).val / 8192, by rw [hN]; omega⟩
  refine ⟨t, flush1_2 _, ?_⟩
  rw [mem_blk]
  obtain ⟨_, _, e2⟩ := idx_facts t
  have et : t.val = (i 0).val / 8192 := rfl
  intro a
  match a with
  | ⟨0, _⟩ =>
    show win1_2.index t (0 : Fin 1) * 8192 ≤ (i 0).val ∧ (i 0).val < win1_2.index t (0 : Fin 1) * 8192 + 8192
    omega

/-- THE OUTPUT ARRAY after the region: the threshold step of the membrane array and the input array as the region finds
    them, entry by entry. -/
theorem array_eq (c : Dev nD) : (dat1 V c).arrAt 2 cfg1.N = fired (V c main_v26) (V c main_v27) :=
  (dat1 V c).arrAt_eq_of_cover 2 _ (fun t _ => flushed_eq V c t) cover

end Cert.KernelIdeal.Hidden

end
-- ==== Proof.Motor.lean ====
/-
  Region 2 (the motor population, 1000 neurons, one grid point whose block is the whole array): what the region leaves
  in its output array, as one function of the two arrays it reads, whatever the buffers hold when it is entered.

  The body loads the membrane block and the input block whole (the input through a cast of its shape to itself, which
  changes nothing), applies the threshold step with input scale 20 entry by entry and stores the result whole.  The one
  grid point's block of each window is the whole array, so entry `i` of the output array ends at the threshold step of
  entry `i` of the membrane array and entry `i` of the input array.
-/
import proofs.«162130_j71751723647586_1_alg».proof.Proof.Gen.KernelIdeal.Frame
import proofs.«162130_j71751723647586_1_alg».proof.Proof.LibThreshold
import Idealize.ShloMosaic.Lib.Pipeline.Value

set_option maxRecDepth 16384

noncomputable section

namespace Cert.KernelIdeal.Motor

open Cert.KernelIdeal Cert.KernelIdeal.Gen Cert.Snn
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The threshold step of a whole array: entry `i` from entry `i` of the membrane array and of the input array. -/
abbrev fired (mem inp : S1000.Idx → Elt F .f32) : S1000.Idx → Elt F .f32 := fun i => spikeK 0x3F666666#32 0x41A00000#32 0x3F800000#32 (mem i) (inp i)

theorem hz : (![0] : Fin 1 → Nat) = fun _ => 0 := funext fun a => by fin_cases a; rfl

/-- The body's stored value is the threshold step of its two loaded blocks, entry by entry. -/
theorem pay_eq (x0 x1 : Vec F S1000 .f32) : k2_pay1 x0 x1 = fun j => spikeK 0x3F666666#32 0x41A00000#32 0x3F800000#32 (x0 j) (x1 j) := by
  unfold k2_pay1
  simp only [shapeCast_self]
  rfl

/-- The printed index maps at the one grid point: all three windows sit at block 0. -/
theorem idx_facts : ∀ t : Fin cfg2.N, win2_0.index t (0 : Fin 1) = 0 ∧ win2_1.index t (0 : Fin 1) = 0 ∧ win2_2.index t (0 : Fin 1) = 0 :=
  (by decide +kernel : ∀ t : Fin grid2.N, _)

/-- What a grid point writes back is its block of the threshold step of the two arrays as the region finds them. -/
theorem flushed_eq (c : Dev nD) (t : Fin cfg2.N) :
    (dat2 V c).flushed 2 t = ((cfg2.win 2).blk t).view.read (Elt F) (fired (V c main_arg3) (V c main_v40)) := by
  show (cfg2.win 2).cut (grid2.coords t) ((dat2 V c).after 2 t) = _
  rw [after2_2]
  unfold out2_2
  rw [View.canon_unit_zero hz]
  simp only [View.ld_unit_zero (S := S1000) hz]
  rw [pay_eq]
  obtain ⟨e0, e1, e2⟩ := idx_facts t
  funext j
  show spikeK 0x3F666666#32 0x41A00000#32 0x3F800000#32 (V c main_arg3 (((cfg2.win 0).blk t).view.emb j)) (V c main_v40 (((cfg2.win 1).blk t).view.emb j))
    = spikeK 0x3F666666#32 0x41A00000#32 0x3F800000#32 (V c main_arg3 (((cfg2.win 2).blk t).view.emb j)) (V c main_v40 (((cfg2.win 2).blk t).view.emb j))
  have h0 : ((cfg2.win 0).blk t).view.emb j = ((cfg2.win 2).blk t).view.emb j := by
    funext a; apply Fin.ext
    match a with
    | ⟨0, _⟩ => show win2_0.index t (0 : Fin 1) * 1000 + 1 * (j 0).val = win2_2.index t (0 : Fin 1) * 1000 + 1 * (j 0).val; omega
  have h1 : ((cfg2.win 1).blk t).view.emb j = ((cfg2.win 2).blk t).view.emb j := by
    funext a; apply Fin.ext
    match a with
    | ⟨0, _⟩ => show win2_1.index t (0 : Fin 1) * 1000 + 1 * (j 0).val = win2_2.index t (0 : Fin 1) * 1000 + 1 * (j 0).val; omega
  rw [h0, h1]

/-- An index is in a point's block iff its coordinate is in the block's range. -/
theorem mem_blk (t : Fin cfg2.N) (i : S1000.Idx) :
    i ∈ ((cfg2.win 2).blk t).view.set ↔ ∀ a : Fin 1, win2_2.index t a * S1000.size a ≤ (i a).val ∧ (i a).val < win2_2.index t a * S1000.size a + S1000.size a := by
  show i ∈ ((View.whole main_v41).slice (win2_2.rect t)).set ↔ _
  rw [View.set_slice_whole, Rect.mem_set_unit]
  exact Iff.rfl

/-- Every index of the output array is in the one point's block. -/
theorem cover (i : S1000.Idx) : ∃ t : Fin cfg2.N, (cfg2.win 2).flush t = true ∧ i ∈ ((cfg2.win 2).blk t).view.set := by
  refine ⟨t2_0, flush2_2 _, ?_⟩
  rw [mem_blk]
  obtain ⟨_, _, e2⟩ := idx_facts t2_0
  intro a
  match a with
  | ⟨0, _⟩ =>
    show win2_2.index t2_0 (0 : Fin 1) * 1000 ≤ (i 0).val ∧ (i 0).val < win2_2.index t2_0 (0 : Fin 1) * 1000 + 1000
    have hi : (i 0).val < 1000 := (i 0).isLt
    omega

/-- THE OUTPUT ARRAY after the region: the threshold step of the membrane array and the input array as the region finds
    them, entry by entry. -/
theorem array_eq (c : Dev nD) : (dat2 V c).arrAt 2 cfg2.N = fired (V c main_arg3) (V c main_v40) :=
  (dat2 V c).arrAt_eq_of_cover 2 _ (fun t _ => flushed_eq V c t) cover

end Cert.KernelIdeal.Motor

end
-- ==== Proof.PadCut.lean ====
/-
  Padding two arrays at the end, applying a function entry by entry, and cutting the padding off again is applying the
  function entry by entry to the arrays themselves.

  For arrays of 400000 entries padded with 1408 further entries to 401408 = 49 · 8192: entry `j < 400000` of the padded
  array is entry `j` of the array (the padding value is never read), and the cut keeps exactly the entries `j < 400000`.
-/
import Idealize.ShloMosaic.Lib.KernelVsHost
import Idealize.ShloMosaic.Lib.Pipeline.Value

noncomputable section

namespace Cert.PadCut

open Idealize.ShloMosaic

abbrev Short : Shape := ⟨1, ![400000]⟩
abbrev Long : Shape := ⟨1, ![401408]⟩

/-- The index of the long array with the same coordinate as an index of the short one. -/
def lift (j : Short.Idx) : Long.Idx := fun a => ⟨(j 0).val, by
  have h : (j 0).val < 400000 := (j 0).isLt
  match a with
  | ⟨0, _⟩ => show (j 0).val < 401408; omega⟩

/-- A padded array read below the padding is the array. -/
theorem pad_lift {α : Type} (A : Short.Idx → α) {u : Shape} (z : u.Idx → α)
    (hp : Short.Pads (![0] : Fin 1 → Nat) ![1408] ![0] Long) (hu : 0 < u.numel) (j : Short.Idx) :
    pad Long ![0] ![1408] ![0] A z hp hu (lift j) = A j :=
  pad_apply_of_inside ![0] ![1408] ![0] A z hp hu (lift j) j fun a => by
    match a with
    | ⟨0, _⟩ => show (j 0).val = 0 + (j 0).val * (0 + 1); omega

/-- Cutting the first 400000 entries of an entry-by-entry function of two padded arrays. -/
theorem cut_map_pad {α β : Type} (f : α → α → β) (A B : Short.Idx → α) {u u' : Shape} (z : u.Idx → α) (z' : u'.Idx → α)
    (hp : Short.Pads (![0] : Fin 1 → Nat) ![1408] ![0] Long) (hu : 0 < u.numel) (hu' : 0 < u'.numel)
    (hs : Long.Slices (![0] : Fin 1 → Nat) Short) :
    extractStridedSlice Short ![0] (fun i : Long.Idx => f (pad Long ![0] ![1408] ![0] A z hp hu i) (pad Long ![0] ![1408] ![0] B z' hp hu' i)) hs
      = fun j => f (A j) (B j) := by
  funext j
  rw [extractStridedSlice_apply ![0] _ hs j (lift j) (fun a => by
    match a with
    | ⟨0, _⟩ => show (j 0).val = 0 + (j 0).val; omega)]
  show f (pad Long ![0] ![1408] ![0] A z hp hu (lift j)) (pad Long ![0] ![1408] ![0] B z' hp hu' (lift j)) = _
  rw [pad_lift, pad_lift]

end Cert.PadCut

end
-- ==== Proof.Onward.lean ====
/-
  The contents of the buffers at the boundaries between the program's segments, read down to the arguments — second
  part: from the hidden population to the result.

  The hidden region is entered with its membrane array and its input current each padded at the end from 400000 to
  401408 = 49 · 8192 entries.  It leaves the threshold step of the two padded arrays, entry by entry, and the first host
  operation after it cuts the padding off again: what is left is the threshold step of the membrane and the current
  themselves, the specification's hidden spikes.  The host operations after that compute the specification's motor
  current of those spikes, the last region the threshold step with scale 20 of the motor membrane and that current; no
  argument is written on the way.  So the result buffer ends at the specification's function of the fourteen arguments.
-/
import proofs.«162130_j71751723647586_1_alg».proof.Proof.Upto
import proofs.«162130_j71751723647586_1_alg».proof.Proof.Hidden
import proofs.«162130_j71751723647586_1_alg».proof.Proof.Motor
import proofs.«162130_j71751723647586_1_alg».proof.Proof.PadCut

set_option maxRecDepth 16384

noncomputable section

namespace Cert.KernelIdeal.Onward

open Cert.KernelIdeal Cert.KernelIdeal.Gen Cert.KernelIdeal.Upto
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 4000000 in
/-- At the hidden region's entry the membrane array is the hidden membrane argument padded at the end. -/
theorem padded_mem : W5 m ρ c (Proc.devRef .tc main_v26)
    = pad S401408 ![0] ![1408] ![0] (W1 m ρ c (Proc.devRef .tc main_arg2)) (sitofp (F := Ideal) .f32 (constantI S_ 32 0#32))
        pads_S400000_S401408_014080 h_S_ := by
  show StableHlo.after hostOps1_3 (StableHlo.after hostOps1_2 (StableHlo.after hostOps1_1 (StableHlo.after hostOps1 (W1 m ρ c)))) (Proc.devRef .tc main_v26) = _
  after_results_simp
  rfl

set_option maxHeartbeats 4000000 in
/-- At the hidden region's entry the input array is the hidden current padded at the end. -/
theorem padded_cur : W5 m ρ c (Proc.devRef .tc main_v27)
    = pad S401408 ![0] ![1408] ![0] (W2 m ρ c (Proc.devRef .tc main_v25)) (sitofp (F := Ideal) .f32 (constantI S_ 32 0#32))
        pads_S400000_S401408_014080 h_S_ := by
  show StableHlo.after hostOps1_3 (StableHlo.after hostOps1_2 (StableHlo.after hostOps1_1 (W2 m ρ c))) (Proc.devRef .tc main_v27) = _
  generalize W2 m ρ c = X
  after_results_simp
  rfl

/-- The hidden region's output with the padding cut off is the specification's hidden spikes of the current and the
    membrane as they stand. -/
theorem spikes1_raw : extractStridedSlice S400000 ![0] (W6 m ρ c (Proc.devRef .tc main_v28)) slices_S401408_S400000_0
    = Cert.Snn.hidden (W2 m ρ c (Proc.devRef .tc main_v25)) (W1 m ρ c (Proc.devRef .tc main_arg2)) := by
  rw [Cert.Snn.hidden_eq]
  have h6 : W6 m ρ c (Proc.devRef .tc main_v28) = Cert.KernelIdeal.Hidden.fired (V5 m ρ c main_v26) (V5 m ρ c main_v27) :=
    (W6_arr m ρ c 2).trans (Cert.KernelIdeal.Hidden.array_eq (V5 m ρ) c)
  rw [h6]
  show extractStridedSlice S400000 ![0] (fun i : S401408.Idx => Cert.Snn.spikeK (F := Ideal) 0x3F666666#32 0x40A00000#32 0x3F800000#32
      (W5 m ρ c (Proc.devRef .tc main_v26) i) (W5 m ρ c (Proc.devRef .tc main_v27) i)) slices_S401408_S400000_0 = _
  rw [padded_mem, padded_cur]
  exact Cert.PadCut.cut_map_pad (Cert.Snn.spikeK (F := Ideal) 0x3F666666#32 0x40A00000#32 0x3F800000#32) _ _ _ _ _ _ _ _

set_option maxHeartbeats 4000000 in
/-- The host operations after the hidden region compute the motor current of what they find. -/
theorem current2_raw : W7 m ρ c (Proc.devRef .tc main_v40)
    = Cert.Snn.motorCurrent (extractStridedSlice S400000 ![0] (W6 m ρ c (Proc.devRef .tc main_v28)) slices_S401408_S400000_0)
        (W6 m ρ c (Proc.devRef .tc main_arg7)) (W6 m ρ c (Proc.devRef .tc main_arg12)) (W6 m ρ c (Proc.devRef .tc main_arg13)) := by
  show StableHlo.after hostOps2 (W6 m ρ c) (Proc.devRef .tc main_v40) = _
  after_results_simp
  rfl

/-! No host operation and no region up to the hidden region's exit writes an argument. -/
set_option maxHeartbeats 4000000 in
theorem at6_arg3 : W6 m ρ c (Proc.devRef .tc main_arg3) = m ((c : Thread nD τ).loc main_arg3) :=
  (W6_of_ne m ρ c main_arg3 (by decide)).trans
    ((show StableHlo.after hostOps1_3 (StableHlo.after hostOps1_2 (StableHlo.after hostOps1_1 (StableHlo.after hostOps1 (W1 m ρ c)))) (Proc.devRef .tc main_arg3) = W1 m ρ c (Proc.devRef .tc main_arg3) by after_results_simp).trans
      (at1_arg3 m ρ c))
set_option maxHeartbeats 4000000 in
theorem at6_arg7 : W6 m ρ c (Proc.devRef .tc main_arg7) = m ((c : Thread nD τ).loc main_arg7) :=
  (W6_of_ne m ρ c main_arg7 (by decide)).trans
    ((show StableHlo.after hostOps1_3 (StableHlo.after hostOps1_2 (StableHlo.after hostOps1_1 (StableHlo.after hostOps1 (W1 m ρ c)))) (Proc.devRef .tc main_arg7) = W1 m ρ c (Proc.devRef .tc main_arg7) by after_results_simp).trans
      (at1_arg7 m ρ c))
set_option maxHeartbeats 4000000 in
theorem at6_arg12 : W6 m ρ c (Proc.devRef .tc main_arg12) = m ((c : Thread nD τ).loc main_arg12) :=
  (W6_of_ne m ρ c main_arg12 (by decide)).trans
    ((show StableHlo.after hostOps1_3 (StableHlo.after hostOps1_2 (StableHlo.after hostOps1_1 (StableHlo.after hostOps1 (W1 m ρ c)))) (Proc.devRef .tc main_arg12) = W1 m ρ c (Proc.devRef .tc main_arg12) by after_results_simp).trans
      (at1_arg12 m ρ c))
set_option maxHeartbeats 4000000 in
theorem at6_arg13 : W6 m ρ c (Proc.devRef .tc main_arg13) = m ((c : Thread nD τ).loc main_arg13) :=
  (W6_of_ne m ρ c main_arg13 (by decide)).trans
    ((show StableHlo.after hostOps1_3 (StableHlo.after hostOps1_2 (StableHlo.after hostOps1_1 (StableHlo.after hostOps1 (W1 m ρ c)))) (Proc.devRef .tc main_arg13) = W1 m ρ c (Proc.devRef .tc main_arg13) by after_results_simp).trans
      (at1_arg13 m ρ c))

set_option maxHeartbeats 4000000 in
theorem at7_arg3 : W7 m ρ c (Proc.devRef .tc main_arg3) = m ((c : Thread nD τ).loc main_arg3) :=
  (show StableHlo.after hostOps2 (W6 m ρ c) (Proc.devRef .tc main_arg3) = W6 m ρ c (Proc.devRef .tc main_arg3) by after_results_simp).trans
    (at6_arg3 m ρ c)

/-- THE RESULT BUFFER at the last boundary is the specification's function of the fourteen arguments. -/
theorem result_eq : W8 m ρ c (Proc.devRef .tc main_v41)
    = Cert.Snn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have h8 : W8 m ρ c (Proc.devRef .tc main_v41) = Cert.KernelIdeal.Motor.fired (V7 m ρ c main_arg3) (V7 m ρ c main_v40) :=
    (W8_arr m ρ c 2).trans (Cert.KernelIdeal.Motor.array_eq (V7 m ρ) c)
  rw [h8]
  unfold Cert.Snn.G
  rw [Cert.Snn.motor_eq]
  show (fun i : S1000.Idx => Cert.Snn.spikeK (F := Ideal) 0x3F666666#32 0x41A00000#32 0x3F800000#32 (W7 m ρ c (Proc.devRef .tc main_arg3) i)
      (W7 m ρ c (Proc.devRef .tc main_v40) i)) = _
  rw [at7_arg3, current2_raw, spikes1_raw, current1, at1_arg2, at6_arg7, at6_arg12, at6_arg13]

end Cert.KernelIdeal.Onward

end
-- ==== Proof.lean ====
/-
  A three-population spiking network (sensory 10000, hidden 400000, motor 1000 leaky integrate-and-fire neurons joined
  by three lists of weighted edges): the kernel program computes, on the extended reals, the same motor spikes
  as the plain reference.

  Both programs gather spikes along the edges, weigh them and sum them by target neuron with the same host operations;
  those sums are carried as they are and never opened.  The programs differ only in the threshold step of a population,
  which the kernel program runs in a kernel region (for the hidden population on arrays padded from 400000 to
  49 · 8192 entries, in 49 blocks, the padding cut off afterwards) and writes as "`0.9·x + s·y` exceeds 1", while the
  reference writes "`0.9·x + y·s - 1` exceeds 0".  On the extended reals `0 < v - 1` iff `1 < v` for every `v`,
  infinite ones included, so the two are one function and the precondition's finiteness is never used.

  The result of both runs is stated as the one function `Cert.Snn.G` of the fourteen arguments (Proof/Spec.lean):
    · the kernel program: its run with the result buffer named at the last boundary's contents (Proof/KernelRun.lean),
      each region's output array as the threshold step of its input arrays entry by entry (Proof/Sensory.lean,
      Proof/Hidden.lean, Proof/Motor.lean), the buffers' contents read through the host operations down to the
      arguments (Proof/Upto.lean, Proof/Onward.lean, with the padding law of Proof/PadCut.lean), and the law of the two
      arrangements of the threshold step (Proof/LibThreshold.lean);
    · the reference: its run, whose result term is `G` of its arguments by definition.
  No rewrite was applied when the kernel program was idealized, so that conjunct is trivial.
-/
import proofs.«162130_j71751723647586_1_alg».proof.Defs
import proofs.«162130_j71751723647586_1_alg».proof.Proof.Gen.Kernel
import proofs.«162130_j71751723647586_1_alg».proof.Proof.Gen.Kernel.Skeleton
import proofs.«162130_j71751723647586_1_alg».proof.Proof.Gen.Kernel.Launch
import proofs.«162130_j71751723647586_1_alg».proof.Proof.Gen.Kernel.Points
import proofs.«162130_j71751723647586_1_alg».proof.Proof.Gen.Kernel.Frame
import proofs.«162130_j71751723647586_1_alg».proof.Proof.Gen.KernelIdeal
import proofs.«162130_j71751723647586_1_alg».proof.Proof.Gen.KernelIdeal.Skeleton
import proofs.«162130_j71751723647586_1_alg».proof.Proof.Gen.KernelIdeal.Launch
import proofs.«162130_j71751723647586_1_alg».proof.Proof.Gen.KernelIdeal.Points
import proofs.«162130_j71751723647586_1_alg».proof.Proof.Gen.KernelIdeal.Frame
import proofs.«162130_j71751723647586_1_alg».proof.Proof.Gen.ReferenceIdeal
import proofs.«162130_j71751723647586_1_alg».proof.Proof.Gen.ReferenceIdeal.Run
import proofs.«162130_j71751723647586_1_alg».proof.Proof.Gen.ReferenceIdeal.Read
import proofs.«162130_j71751723647586_1_alg».proof.Proof.Gen.Pre_finite_inputs
import proofs.«162130_j71751723647586_1_alg».proof.Proof.KernelRun
import proofs.«162130_j71751723647586_1_alg».proof.Proof.Onward
import proofs.«162130_j71751723647586_1_alg».proof.Proof.Spec
import Idealize.ShloMosaic.Adequacy
import Idealize.ShloMosaic.Init

noncomputable section

namespace Cert.Proof

open Idealize.ShloMosaic Idealize.ShloMosaic.TcCoe Idealize.SL.Sem

/-- The word-level kernel program runs, nothing faulting, and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The idealized kernel program ends with its result at the specification's function of its arguments, the arguments
    as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v41)
          = Cert.Snn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run Cert.KernelIdeal.defs _ _).mono
    (fun r h c => ⟨(h c).1.trans (Cert.KernelIdeal.Onward.result_eq m ρ c), (h c).2⟩)
    (Cert.KernelIdeal.Ends.run_result (F := Ideal) m ρ)

/-- From memories that agree on the arguments both idealized programs end with the same result: the specification's
    function of the arguments — the kernel program's by `kernel_run`, the reference's because its run's result term is
    that function by definition. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [e0, e1, e2, e3, e4, e5, e6, e7, e8, e9, e10, e11, e12, e13]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
